-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S800000 .f32) (main_arg3 : FVec F S800000 .f32) (main_arg4 : FVec F S128x128 .f32) (main_arg5 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000 .f32 := Host.absf main_arg3
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S5000x128 : Shape := ⟨2, ![5000, 128]⟩

abbrev nBuf : Space → Nat
  | .hbm => 70
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S800000, .f32⟩
  | .hbm, ⟨4, _⟩ => ⟨S128x128, .f32⟩
  | .hbm, ⟨5, _⟩ => ⟨S128x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S800000, .f32⟩
  | .hbm, ⟨45, _⟩ => ⟨S800000, .f32⟩
  | .hbm, ⟨46, _⟩ => ⟨S800000, .f32⟩
  | .hbm, ⟨47, _⟩ => ⟨S800000, .f32⟩
  | .hbm, ⟨48, _⟩ => ⟨S800000, .f32⟩
  | .hbm, ⟨49, _⟩ => ⟨S800000x1, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S128x128, .f32⟩
  | .hbm, ⟨66, _⟩ => ⟨S128x128, .bf16⟩
  | .hbm, ⟨67, _⟩ => ⟨S128x128, .f32⟩
  | .hbm, ⟨68, _⟩ => ⟨S128x128, .bf16⟩
  | .hbm, ⟨69, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v45) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v50) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩

abbrev nBuf : Space → Nat
  | .hbm => 71
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S800000, .f32⟩
  | .hbm, ⟨4, _⟩ => ⟨S128x128, .f32⟩
  | .hbm, ⟨5, _⟩ => ⟨S128x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S800000, .f32⟩
  | .hbm, ⟨45, _⟩ => ⟨S800000, .f32⟩
  | .hbm, ⟨46, _⟩ => ⟨S800000, .f32⟩
  | .hbm, ⟨47, _⟩ => ⟨S800000, .f32⟩
  | .hbm, ⟨48, _⟩ => ⟨S800000, .f32⟩
  | .hbm, ⟨49, _⟩ => ⟨S800000x1, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .hbm, ⟨66, _⟩ => ⟨S128x128, .f32⟩
  | .hbm, ⟨67, _⟩ => ⟨S50000x128, .f32⟩
  | .hbm, ⟨68, _⟩ => ⟨S128x128, .f32⟩
  | .hbm, ⟨69, _⟩ => ⟨S50000x128, .f32⟩
  | .hbm, ⟨70, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.DualLinear.lean ====
/-
  The function both programs compute, stated once and over no program.

  A graph layer's dense tail: from the aggregated neighbour embedding `side` (one row of 128 channels per node) and the
  node features `x` (same shape) the output row of node `n` at output channel `o` is

      out[n, o] = ∑ₖ side[n, k] · u[k, o]  +  ∑ₖ (x[n, k] · side[n, k]) · v[k, o]

  where `u` and `v` are the two weight matrices already transposed (contraction axis first). Row `n` of the output
  depends on row `n` of `side` and of `x` only, and on all of `u` and `v`: that is what lets the rows be computed in
  blocks of any height, and it is the only fact about the function that the comparison of the two programs uses. No law
  of the extended reals is needed beyond that: each side forms the same two sums of the same products and adds them in
  the same order, so the infinities cause no trouble and no finiteness of the inputs is used.
-/
import Idealize.ShloMosaic.PureOps.Ideal
import Idealize.ShloMosaic.Lib.ValueIdx

noncomputable section

namespace Cert.DualLinear

open Idealize.ShloMosaic Idealize.ShloMosaic.ValueIdx

/-- One row of 128 channels for each of the 50000 nodes. -/
abbrev Nodes : Shape := ⟨2, ![50000, 128]⟩
/-- A 128 × 128 weight matrix, contraction axis first. -/
abbrev Weights : Shape := ⟨2, ![128, 128]⟩

/-- The output at node `n`, channel `o`: the neighbour embedding's row through `u`, plus the row of products
    `x · side` through `v`. -/
def entry (side x : Nodes.Idx → EReal) (u v : Weights.Idx → EReal) (n : Fin 50000) (o : Fin 128) : EReal :=
  (∑ k : Fin 128, side (ix2 n k) * u (ix2 k o)) + ∑ k : Fin 128, (x (ix2 n k) * side (ix2 n k)) * v (ix2 k o)

/-- The whole output array. -/
def out (side x : Nodes.Idx → EReal) (u v : Weights.Idx → EReal) : Nodes.Idx → EReal :=
  fun i => entry side x u v ⟨(i 0).val, idx2_lt0 i⟩ ⟨(i 1).val, idx2_lt1 i⟩

theorem out_apply (side x : Nodes.Idx → EReal) (u v : Weights.Idx → EReal) (n : Fin 50000) (o : Fin 128) :
    out side x u v (ix2 n o) = entry side x u v n o := rfl

end Cert.DualLinear

end
-- ==== Proof.ReferenceValue.lean ====
/-
  The reference, read at an index, is the dual linear layer of its own intermediate values.

  The reference's last five operations are: the product `x · side` entry by entry, the two transposes of the weight
  matrices, the two matrix products `side · W0ᵀ` and `(x · side) · W1ᵀ` (each a host `dot_general` contracting the
  channel axis of the left operand with the first axis of the transposed weight), and their sum. Read at the output
  index (n, o) each product is the sum over the channel k of the left operand at (n, k) times the transposed weight at
  (k, o): exactly the two sums of `DualLinear.entry`. The side embedding itself (the degree normalisation, the edge
  weights and the scatter-add over the edges) is never opened: it enters only as the array `val_main_v45 x ei dist`.
-/
import proofs.«137846_j6511170421701_2_alg».proof.Proof.ReferenceRead
import proofs.«137846_j6511170421701_2_alg».proof.Proof.DualLinear

noncomputable section

namespace Cert.ReferenceIdeal.RefValue

open Cert.ReferenceIdeal Cert.ReferenceIdeal.ReadP Idealize.ShloMosaic Idealize.ShloMosaic.ValueIdx

/-- The left operand's index of either matrix product at output index `i` and channel `k` is (row of `i`, `k`). -/
theorem lidx48_eq (i : S50000x128.Idx) (k : Fin 128) : lidx_main_v48 i k = ix2 ⟨(i 0).val, idx2_lt0 i⟩ k :=
  funext fun a => by match a with | ⟨0, _⟩ => rfl | ⟨1, _⟩ => rfl
theorem lidx50_eq (i : S50000x128.Idx) (k : Fin 128) : lidx_main_v50 i k = ix2 ⟨(i 0).val, idx2_lt0 i⟩ k :=
  funext fun a => by match a with | ⟨0, _⟩ => rfl | ⟨1, _⟩ => rfl
/-- The transposed weight's index is (`k`, column of `i`). -/
theorem ridx48_eq (i : S50000x128.Idx) (k : Fin 128) : ridx_main_v48 i k = ix2 k ⟨(i 1).val, idx2_lt1 i⟩ :=
  funext fun a => by match a with | ⟨0, _⟩ => rfl | ⟨1, _⟩ => rfl
theorem ridx50_eq (i : S50000x128.Idx) (k : Fin 128) : ridx_main_v50 i k = ix2 k ⟨(i 1).val, idx2_lt1 i⟩ :=
  funext fun a => by match a with | ⟨0, _⟩ => rfl | ⟨1, _⟩ => rfl

/-- The reference's result is the dual linear layer of: its side embedding, the node features, and the two transposed
    weight matrices. -/
theorem result_eq (x0 : (⟨S50000x128, .f32⟩ : BufTy).Contents (Elt Ideal)) (x1 : (⟨S2x800000, .i32⟩ : BufTy).Contents (Elt Ideal))
    (x3 : (⟨S800000, .f32⟩ : BufTy).Contents (Elt Ideal)) (x4 x5 : (⟨S128x128, .f32⟩ : BufTy).Contents (Elt Ideal)) :
    val_main_v51 (F := Ideal) x0 x1 x3 x4 x5
      = Cert.DualLinear.out (val_main_v45 (F := Ideal) x0 x1 x3) x0 (val_main_v47 (F := Ideal) x4) (val_main_v49 (F := Ideal) x5) := by
  funext i
  rw [val_main_v51_apply, val_main_v48_apply, val_main_v50_apply]
  simp only [val_main_v46_apply, lidx48_eq, lidx50_eq, ridx48_eq, ridx50_eq]
  rfl

end Cert.ReferenceIdeal.RefValue

end
-- ==== Proof.HostPrefix.lean ====
/-
  What the kernel's launch finds in the arrays it stages.

  Before the kernel is launched the host computes, from the edge list and the distances, the aggregated neighbour
  embedding `side` (window 0's array), and transposes each weight matrix and narrows it to bf16 (windows 2 and 3);
  the node features (window 1) are an argument, untouched. The host operations that build `side` are, one for one, the
  reference's own operations up to that value, on the same arguments, so the array is the reference's own intermediate
  value `val_main_v45 x ei dist`: the operations are never opened, only recognised as the same composition. Likewise a
  transposed weight is the reference's transposed weight (and the narrowing to bf16 changes nothing on the extended
  reals). All three hold for every float instance, and are stated so.
-/
import proofs.«137846_j6511170421701_2_alg».proof.Proof.Gen.KernelIdeal.Frame
import proofs.«137846_j6511170421701_2_alg».proof.Proof.ReferenceRead
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ)

set_option maxRecDepth 8192 in
set_option maxHeartbeats 26000000 in
/-- The array window 0 stages is the side embedding, as the reference computes it from the same three arguments. -/
theorem side_at_entry (c : Dev nD) :
    V (F := F) m c main_v45 = Cert.ReferenceIdeal.ReadP.val_main_v45 (F := F) (m ((c.tc : Thread nD τ).loc main_arg0))
      (m ((c.tc : Thread nD τ).loc main_arg1)) (m ((c.tc : Thread nD τ).loc main_arg3)) := by
  dsimp only [Gen.V]
  simp only [hostOps0, hostOps0_1, hostOps0_2, List.flatten_cons, List.flatten_nil, List.append_nil, List.cons_append, List.nil_append]
  after_results_simp
  simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_cst, Cert.ReferenceIdeal.ReadP.val_main_v4, Cert.ReferenceIdeal.ReadP.val_main_cst_0, Cert.ReferenceIdeal.ReadP.val_main_v5, Cert.ReferenceIdeal.ReadP.val_main_v6, Cert.ReferenceIdeal.ReadP.val_main_v7, Cert.ReferenceIdeal.ReadP.val_main_cst_1, Cert.ReferenceIdeal.ReadP.val_main_v8, Cert.ReferenceIdeal.ReadP.val_main_v9, Cert.ReferenceIdeal.ReadP.val_main_cst_2, Cert.ReferenceIdeal.ReadP.val_main_v10, Cert.ReferenceIdeal.ReadP.val_main_v11, Cert.ReferenceIdeal.ReadP.val_main_v12, Cert.ReferenceIdeal.ReadP.val_main_cst_3, Cert.ReferenceIdeal.ReadP.val_main_call0_v0, Cert.ReferenceIdeal.ReadP.val_main_v13, Cert.ReferenceIdeal.ReadP.val_main_c, Cert.ReferenceIdeal.ReadP.val_main_v14, Cert.ReferenceIdeal.ReadP.val_main_v15, Cert.ReferenceIdeal.ReadP.val_main_c_4, Cert.ReferenceIdeal.ReadP.val_main_v16, Cert.ReferenceIdeal.ReadP.val_main_v17, Cert.ReferenceIdeal.ReadP.val_main_v18, Cert.ReferenceIdeal.ReadP.val_main_v19, Cert.ReferenceIdeal.ReadP.val_main_v20, Cert.ReferenceIdeal.ReadP.val_main_c_5, Cert.ReferenceIdeal.ReadP.val_main_v21, Cert.ReferenceIdeal.ReadP.val_main_v22, Cert.ReferenceIdeal.ReadP.val_main_c_6, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_v30, Cert.ReferenceIdeal.ReadP.val_main_v31, Cert.ReferenceIdeal.ReadP.val_main_v32, Cert.ReferenceIdeal.ReadP.val_main_v33, Cert.ReferenceIdeal.ReadP.val_main_c_7, Cert.ReferenceIdeal.ReadP.val_main_v34, Cert.ReferenceIdeal.ReadP.val_main_v35, Cert.ReferenceIdeal.ReadP.val_main_c_8, Cert.ReferenceIdeal.ReadP.val_main_v36, Cert.ReferenceIdeal.ReadP.val_main_v37, Cert.ReferenceIdeal.ReadP.val_main_v38, Cert.ReferenceIdeal.ReadP.val_main_v39, Cert.ReferenceIdeal.ReadP.val_main_v40, Cert.ReferenceIdeal.ReadP.val_main_v41, Cert.ReferenceIdeal.ReadP.val_main_v42, Cert.ReferenceIdeal.ReadP.val_main_cst_9, Cert.ReferenceIdeal.ReadP.val_main_v43, Cert.ReferenceIdeal.ReadP.val_main_v44, Cert.ReferenceIdeal.ReadP.val_main_v45]
  rfl

/-- Window 0's array, named as the pipeline names it. -/
theorem window0 (c : Dev nD) :
    V (F := F) m c (Pipeline.arrRef spec0 0) = Cert.ReferenceIdeal.ReadP.val_main_v45 (F := F) (m ((c.tc : Thread nD τ).loc main_arg0))
      (m ((c.tc : Thread nD τ).loc main_arg1)) (m ((c.tc : Thread nD τ).loc main_arg3)) := side_at_entry m c

/-- Window 1's array is the node features, an argument no host operation writes. -/
theorem window1 (c : Dev nD) : V (F := F) m c (Pipeline.arrRef spec0 1) = m ((c.tc : Thread nD τ).loc main_arg0) := V_main_arg0 m c

/-! ## The two weight windows, on the extended reals -/

section Weights

variable (mI : (ℓ : Loc nD τ sig) → Buf (Elt Ideal) ℓ)

set_option maxRecDepth 8192 in
set_option maxHeartbeats 4000000 in
/-- Window 2's array is the first weight matrix transposed: the narrowing to bf16 is the identity on the extended reals. -/
theorem w0t_at_entry (c : Dev nD) :
    V (F := Ideal) mI c main_v47 = Cert.ReferenceIdeal.ReadP.val_main_v47 (F := Ideal) (mI ((c.tc : Thread nD τ).loc main_arg4)) := by
  dsimp only [Gen.V]
  simp only [hostOps0, hostOps0_1, hostOps0_2, List.flatten_cons, List.flatten_nil, List.append_nil, List.cons_append, List.nil_append]
  after_results_simp
  rfl

set_option maxRecDepth 8192 in
set_option maxHeartbeats 4000000 in
/-- Window 3's array is the second weight matrix transposed. -/
theorem w1t_at_entry (c : Dev nD) :
    V (F := Ideal) mI c main_v49 = Cert.ReferenceIdeal.ReadP.val_main_v49 (F := Ideal) (mI ((c.tc : Thread nD τ).loc main_arg5)) := by
  dsimp only [Gen.V]
  simp only [hostOps0, hostOps0_1, hostOps0_2, List.flatten_cons, List.flatten_nil, List.append_nil, List.cons_append, List.nil_append]
  after_results_simp
  rfl

theorem window2 (c : Dev nD) :
    V (F := Ideal) mI c (Pipeline.arrRef spec0 2) = Cert.ReferenceIdeal.ReadP.val_main_v47 (F := Ideal) (mI ((c.tc : Thread nD τ).loc main_arg4)) :=
  w0t_at_entry mI c

theorem window3 (c : Dev nD) :
    V (F := Ideal) mI c (Pipeline.arrRef spec0 3) = Cert.ReferenceIdeal.ReadP.val_main_v49 (F := Ideal) (mI ((c.tc : Thread nD τ).loc main_arg5)) :=
  w1t_at_entry mI c

end Weights

end Cert.KernelIdeal.HostPrefix

end
-- ==== Proof.BodyValue.lean ====
/-
  The kernel body's arithmetic, read at one entry of the block it stores.

  At each grid point the body loads a block of 5000 rows of the side embedding and of the node features and the two
  whole 128 × 128 transposed weights, and stores one block: the sum of two block products, `side · u` and
  `(x · side) · v`, each accumulated from zero. Read at row p, column q a block product is the plain sum over the 128
  channels (the contraction index of the product is its one coordinate); the narrowing of the operands to bf16 is the
  identity on the extended reals.
-/
import proofs.«137846_j6511170421701_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx

/-! ## The operand indices of the block product

The block product contracts the block's channel axis with the weight's first axis: at output (p, q) and channel k the
left operand is read at (p, k) and the weight at (k, q). -/

theorem lhs_row (j : S5000x128.Idx) (c : dot_S5000x128_S128x128_S5000x128_1_0_0_1_n_n.contr.Idx) : (dot_S5000x128_S128x128_S5000x128_1_0_0_1_n_n.lhsIdx j c 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_chan (j : S5000x128.Idx) (c : dot_S5000x128_S128x128_S5000x128_1_0_0_1_n_n.contr.Idx) : (dot_S5000x128_S128x128_S5000x128_1_0_0_1_n_n.lhsIdx j c 1).val = (c ⟨0, by decide⟩).val :=
  dot_S5000x128_S128x128_S5000x128_1_0_0_1_n_n.lhsIdx_val_of_single rfl j c
theorem rhs_chan (j : S5000x128.Idx) (c : dot_S5000x128_S128x128_S5000x128_1_0_0_1_n_n.contr.Idx) : (dot_S5000x128_S128x128_S5000x128_1_0_0_1_n_n.rhsIdx j c 0).val = (c ⟨0, by decide⟩).val :=
  dot_S5000x128_S128x128_S5000x128_1_0_0_1_n_n.rhsIdx_val_of_single rfl j c
theorem rhs_col (j : S5000x128.Idx) (c : dot_S5000x128_S128x128_S5000x128_1_0_0_1_n_n.contr.Idx) : (dot_S5000x128_S128x128_S5000x128_1_0_0_1_n_n.rhsIdx j c 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, read at row `p`, column `q`: the sum over the channel `k` of the block
    at (p, k) times the weight at (k, q). -/
theorem matmul_at (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q) = ∑ k : Fin 128, l (ix2 p k) * r (ix2 k q) := by
  show FloatOps.matmul _ _ _ _ _ _ = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_chan _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_chan _ _).trans hk
    | ⟨1, _⟩ => exact rhs_col _ _)
  rw [el, er]

/-- The value the body stores, at row `p`, column `q` of the block: with `x0` the block of the side embedding, `x1` the
    block of node features and `x2`, `x3` the two transposed weights, it is the side block's row through `x2` plus the row of
    products `x1 · x0` through `x3` (the narrowings to bf16 and the shape casts of a value to its own shape are
    identities on the extended reals). -/
theorem payload_at (x0 x1 : Vec Ideal S5000x128 .f32) (x2 x3 : Vec Ideal S128x128 .bf16) (p : Fin 5000) (q : Fin 128) :
    k0_pay1 (F := Ideal) x0 x1 x2 x3 (ix2 p q)
      = (∑ k : Fin 128, x0 (ix2 p k) * x2 (ix2 k q)) + ∑ k : Fin 128, (x1 (ix2 p k) * x0 (ix2 p k)) * x3 (ix2 k q) := by
  unfold k0_pay1
  rw [shapeCast_self, shapeCast_self, shapeCast_self]
  rw [addf_apply, matmul_at, matmul_at]
  rfl

end Cert.KernelIdeal.BodyValue

end
-- ==== Proof.KernelValue.lean ====
/-
  From the blocks the kernel writes to the whole output array.

  The grid has ten points; point t stages rows 5000·t … 5000·t + 4999 of the side embedding and of the node features
  (all 128 channels) and both whole transposed weights, and writes back rows 5000·t … 5000·t + 4999 of the output. Since
  output row n of the dual linear layer reads only row n of the two row-blocked operands, what point t writes back is
  block t of the layer applied to the WHOLE arrays; the ten blocks tile the 50000 rows (row n lies in block n / 5000), so
  after the run the output array is the layer of the arrays the launch found. Everything about blocks and entries is
  stated for arbitrary arrays; the arrays the launch found enter only at the end, as arguments.
-/
import proofs.«137846_j6511170421701_2_alg».proof.Proof.Gen.KernelIdeal.Value
import proofs.«137846_j6511170421701_2_alg».proof.Proof.BodyValue
import proofs.«137846_j6511170421701_2_alg».proof.Proof.DualLinear

noncomputable section

namespace Cert.KernelIdeal.KernelValue

open Cert.KernelIdeal Cert.KernelIdeal.Gen Idealize.ShloMosaic Idealize.ShloMosaic.TcCoe Idealize.SL.Sem Idealize.ShloMosaic.ValueIdx
open Idealize.ShloMosaic.Pipeline (Dat)

theorem zeros : (![0, 0] : Fin 2 → Nat) = fun _ => 0 := funext fun a => by fin_cases a <;> rfl

/-- The printed index maps over the ten grid points: the two row-blocked inputs move with the output (block row t,
    block column 0), the weights stay at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## A block of an array, read at an entry, is the array at the corresponding entry -/

/-- Row p of point t's block of window 0's array is row 5000·t + p of the array. -/
theorem rows_block0 (A : S50000x128.Idx → EReal) (t : Fin cfg0.N) (p : Fin 5000) (k : Fin 128) (n : Fin 50000)
    (hn : n.val = t.val * 5000 + p.val) : ((cfg0.win 0).blk t).view.read (Elt Ideal) A (ix2 p k) = A (ix2 n k) := by
  obtain ⟨e00, e01, -⟩ := index_facts t
  show A (((cfg0.win 0).blk t).view.emb (ix2 p k)) = A (ix2 n k)
  refine congrArg A ?_
  funext a; apply Fin.ext
  match a with
  | ⟨0, _⟩ => show win0_0.index t (0 : Fin 2) * 5000 + 1 * p.val = n.val; omega
  | ⟨1, _⟩ => show win0_0.index t (1 : Fin 2) * 128 + 1 * k.val = k.val; omega

/-- The same for window 1's array. -/
theorem rows_block1 (A : S50000x128.Idx → EReal) (t : Fin cfg0.N) (p : Fin 5000) (k : Fin 128) (n : Fin 50000)
    (hn : n.val = t.val * 5000 + p.val) : ((cfg0.win 1).blk t).view.read (Elt Ideal) A (ix2 p k) = A (ix2 n k) := by
  obtain ⟨-, -, e10, e11, -⟩ := index_facts t
  show A (((cfg0.win 1).blk t).view.emb (ix2 p k)) = A (ix2 n k)
  refine congrArg A ?_
  funext a; apply Fin.ext
  match a with
  | ⟨0, _⟩ => show win0_1.index t (0 : Fin 2) * 5000 + 1 * p.val = n.val; omega
  | ⟨1, _⟩ => show win0_1.index t (1 : Fin 2) * 128 + 1 * k.val = k.val; omega

/-- Every point's block of window 2's array is the whole array. -/
theorem whole_block2 (A : S128x128.Idx → EReal) (t : Fin cfg0.N) (k q : Fin 128) :
    ((cfg0.win 2).blk t).view.read (Elt Ideal) A (ix2 k q) = A (ix2 k q) := by
  obtain ⟨-, -, -, -, e20, e21, -⟩ := index_facts t
  show A (((cfg0.win 2).blk t).view.emb (ix2 k q)) = A (ix2 k q)
  refine congrArg A ?_
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- And of window 3's. -/
theorem whole_block3 (A : S128x128.Idx → EReal) (t : Fin cfg0.N) (k q : Fin 128) :
    ((cfg0.win 3).blk t).view.read (Elt Ideal) A (ix2 k q) = A (ix2 k q) := by
  obtain ⟨-, -, -, -, -, -, e30, e31, -⟩ := index_facts t
  show A (((cfg0.win 3).blk t).view.emb (ix2 k q)) = A (ix2 k q)
  refine congrArg A ?_
  funext a; apply Fin.ext
  match a with
  | ⟨0, _⟩ => show win0_3.index t (0 : Fin 2) * 128 + 1 * k.val = k.val; omega
  | ⟨1, _⟩ => show win0_3.index t (1 : Fin 2) * 128 + 1 * q.val = q.val; omega

/-! ## What the body leaves, from the blocks of any four arrays, is a block of the layer of those arrays -/

theorem block_of_layer (t : Fin cfg0.N) (A0 A1 : S50000x128.Idx → EReal) (A2 A3 : S128x128.Idx → EReal) :
    (cfg0.win 4).cut (grid0.coords t)
        (out0_4 (((cfg0.win 0).blk t).view.read (Elt Ideal) A0) (((cfg0.win 1).blk t).view.read (Elt Ideal) A1)
          (((cfg0.win 2).blk t).view.read (Elt Ideal) A2) (((cfg0.win 3).blk t).view.read (Elt Ideal) A3))
      = ((cfg0.win 4).blk t).view.read (Elt Ideal) (Cert.DualLinear.out A0 A1 A2 A3) := by
  unfold out0_4
  rw [View.canon_unit_zero zeros]
  simp only [View.ld_unit_zero (S := S5000x128) zeros, View.ld_unit_zero (S := S128x128) zeros]
  funext j
  obtain ⟨p, q, rfl⟩ : ∃ (p : Fin 5000) (q : Fin 128), j = ix2 p q := ⟨j 0, j 1, eq_ix2 j⟩
  obtain ⟨-, -, -, -, -, -, -, -, e40, e41⟩ := index_facts t
  have hN : cfg0.N = 10 := N_0
  have ht : t.val < 10 := hN ▸ t.isLt
  have hn : t.val * 5000 + p.val < 50000 := by have := p.isLt; omega
  have hemb : ((cfg0.win 4).blk t).view.emb (ix2 p q) = (ix2 (⟨t.val * 5000 + p.val, hn⟩ : Fin 50000) q : S50000x128.Idx) := by
    funext a; apply Fin.ext
    match a with
    | ⟨0, _⟩ => show win0_4.index t (0 : Fin 2) * 5000 + 1 * p.val = t.val * 5000 + p.val; omega
    | ⟨1, _⟩ => show win0_4.index t (1 : Fin 2) * 128 + 1 * q.val = q.val; omega
  show k0_pay1 (((cfg0.win 0).blk t).view.read (Elt Ideal) A0) (((cfg0.win 1).blk t).view.read (Elt Ideal) A1)
      (((cfg0.win 2).blk t).view.read (Elt Ideal) A2) (((cfg0.win 3).blk t).view.read (Elt Ideal) A3) (ix2 p q)
    = Cert.DualLinear.out A0 A1 A2 A3 (((cfg0.win 4).blk t).view.emb (ix2 p q))
  rw [hemb, Cert.DualLinear.out_apply]
  refine (BodyValue.payload_at (((cfg0.win 0).blk t).view.read (Elt Ideal) A0) (((cfg0.win 1).blk t).view.read (Elt Ideal) A1)
      (((cfg0.win 2).blk t).view.read (Elt Ideal) A2) (((cfg0.win 3).blk t).view.read (Elt Ideal) A3) p q).trans ?_
  unfold Cert.DualLinear.entry
  refine congrArg₂ (· + ·) (Finset.sum_congr rfl fun k _ => ?_) (Finset.sum_congr rfl fun k _ => ?_)
  · rw [rows_block0 A0 t p k ⟨t.val * 5000 + p.val, hn⟩ rfl, whole_block2 A2 t k q]
  · rw [rows_block0 A0 t p k ⟨t.val * 5000 + p.val, hn⟩ rfl, rows_block1 A1 t p k ⟨t.val * 5000 + p.val, hn⟩ rfl, whole_block3 A3 t k q]

/-! ## The blocks tile the rows -/

/-- An index of the output array is in point t's block iff each coordinate is in the block's range on its axis. -/
theorem mem_blk (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v50).slice (win0_4.rect t)).set ↔ _
  rw [View.set_slice_whole, Rect.mem_set_unit]
  exact Iff.rfl

/-- Row n lies in the block of point n / 5000. -/
theorem cover (i : S50000x128.Idx) : ∃ t : Fin cfg0.N, (cfg0.win 4).flush t = true ∧ i ∈ ((cfg0.win 4).blk t).view.set := by
  have hi0 : (i 0).val < 50000 := idx2_lt0 i
  have hi1 : (i 1).val < 128 := idx2_lt1 i
  have hN : cfg0.N = 10 := N_0
  have hlt : (i 0).val / 5000 < cfg0.N := by rw [hN]; omega
  obtain ⟨-, -, -, -, -, -, -, -, e40, e41⟩ := index_facts ⟨(i 0).val / 5000, hlt⟩
  refine ⟨⟨(i 0).val / 5000, hlt⟩, flush0_4 _, ?_⟩
  rw [mem_blk]
  intro a
  match a with
  | ⟨0, _⟩ =>
    show win0_4.index ⟨(i 0).val / 5000, hlt⟩ (0 : Fin 2) * 5000 ≤ (i 0).val ∧ (i 0).val < win0_4.index ⟨(i 0).val / 5000, hlt⟩ (0 : Fin 2) * 5000 + 5000
    have e : win0_4.index ⟨(i 0).val / 5000, hlt⟩ (0 : Fin 2) = (i 0).val / 5000 := e40
    omega
  | ⟨1, _⟩ =>
    show win0_4.index ⟨(i 0).val / 5000, hlt⟩ (1 : Fin 2) * 128 ≤ (i 1).val ∧ (i 1).val < win0_4.index ⟨(i 0).val / 5000, hlt⟩ (1 : Fin 2) * 128 + 128
    omega

/-! ## The array after the run, and the run -/

variable (m : (ℓ : Loc nD τ sig) → Buf (Elt Ideal) ℓ) (ρ : Dev nD → PrngReg)

/-- The output array after the run: the dual linear layer of the arrays the launch found in the four input windows. -/
def result (c : Dev nD) : S50000x128.Idx → EReal :=
  Cert.DualLinear.out (V m c (Pipeline.arrRef spec0 0)) (V m c (Pipeline.arrRef spec0 1)) (V m c (Pipeline.arrRef spec0 2))
    (V m c (Pipeline.arrRef spec0 3))

/-- Point t writes back block t of `result`. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold iblk result
  exact block_of_layer t (V m c (Pipeline.arrRef spec0 0)) (V m c (Pipeline.arrRef spec0 1)) (V m c (Pipeline.arrRef spec0 2))
    (V m c (Pipeline.arrRef spec0 3))

theorem final (c : Dev nD) : (dats m 0 c).arrAt 4 cfg0.N = result m c :=
  (dats m 0 c).arrAt_eq_of_cover 4 (result m c) (fun t _ => flushed_eq m c t) cover

/-- The kernel's run: the output array ends at `result`, the arguments unchanged. -/
theorem run : θ_run defs (onTc (τ := τ) (main (F := Ideal))) ⟨m, fun _ => 0, ρ⟩ fun r => ∀ c : Dev nD,
      r.2.mem ((c : Thread nD τ).loc main_v50) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.KernelValue

end
-- ==== Proof.lean ====
/-
  The kernel against its reference: a graph layer's dense tail, `side · W0ᵀ + (x · side) · W1ᵀ`.

  Both programs first build the aggregated neighbour embedding `side` from the node features, the edge list and the edge
  distances, by the SAME host operations (the degree count, its inverse square root, the edge weights, the gather of the
  neighbours' rows and the scatter-add over the edges). The kernel then hands `side`, the node features and the two
  transposed weights (narrowed to bf16) to a Pallas call that computes, for ten blocks of 5000 rows,
  `side · W0ᵀ + (x · side) · W1ᵀ` by two block products; the reference computes the same expression with two whole
  matrix products on the host. On the extended reals the narrowings are identities and a product of a block of rows is
  the block of rows of the product, so both results are ONE function of the arguments — `DualLinear.out` of the side
  embedding (never opened: it is the reference's own intermediate value on both sides), the node features and the two
  transposed weights. No law of the extended reals beyond that is used, so the finiteness of the inputs is not needed.

  Proof/DualLinear.lean states the function; Proof/ReferenceValue.lean reads the reference's last operations as it;
  Proof/BodyValue.lean reads the kernel body's stored value at an entry; Proof/KernelValue.lean goes from the ten blocks
  to the whole output array; Proof/HostPrefix.lean identifies the arrays the launch stages. The three frames are the
  generated ones (the reference's is its run with the result dropped); the idealization rewrote nothing, so the
  `preserves` conjunct is `True`.
-/
import proofs.«137846_j6511170421701_2_alg».proof.Defs
import proofs.«137846_j6511170421701_2_alg».proof.Proof.Gen.Kernel
import proofs.«137846_j6511170421701_2_alg».proof.Proof.Gen.Kernel.Frame
import proofs.«137846_j6511170421701_2_alg».proof.Proof.Gen.KernelIdeal
import proofs.«137846_j6511170421701_2_alg».proof.Proof.Gen.KernelIdeal.Frame
import proofs.«137846_j6511170421701_2_alg».proof.Proof.Gen.KernelIdeal.Value
import proofs.«137846_j6511170421701_2_alg».proof.Proof.Gen.ReferenceIdeal
import proofs.«137846_j6511170421701_2_alg».proof.Proof.Gen.Pre_finite_inputs
import proofs.«137846_j6511170421701_2_alg».proof.Proof.ReferenceRun
import proofs.«137846_j6511170421701_2_alg».proof.Proof.ReferenceRead
import proofs.«137846_j6511170421701_2_alg».proof.Proof.ReferenceValue
import proofs.«137846_j6511170421701_2_alg».proof.Proof.HostPrefix
import proofs.«137846_j6511170421701_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation of this kernel. -/
theorem preserves : Cert.preserves_Kernel_KernelIdeal := trivial

/-- The kernel's output array and the reference's result are the dual linear layer of the same four arrays: the side
    embedding as the reference computes it, the node features, and the two transposed weights. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, -, a3, a4, a5⟩ := hagree c
  rw [Cert.ReferenceIdeal.ReadP.val_main_v51_eq, Cert.ReferenceIdeal.RefValue.result_eq, a0, a1, a3, a4, a5]
  show _ = Cert.KernelIdeal.KernelValue.result m c
  unfold Cert.KernelIdeal.KernelValue.result
  rw [Cert.KernelIdeal.HostPrefix.window0, Cert.KernelIdeal.HostPrefix.window1, Cert.KernelIdeal.HostPrefix.window2,
    Cert.KernelIdeal.HostPrefix.window3]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
